-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S640000 : Shape := ⟨1, ![640000]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S40000x256 .f32) (main_arg1 : FVec F S640000x128 .f32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : IVec S640000 32) (main_arg9 : IVec S640000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S40000x256 : Shape := ⟨2, ![40000, 256]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S640000 : Shape := ⟨1, ![640000]⟩
abbrev S1x128 : Shape := ⟨2, ![1, 128]⟩
abbrev S40000x128 : Shape := ⟨2, ![40000, 128]⟩
abbrev S5000x256 : Shape := ⟨2, ![5000, 256]⟩
abbrev S5000x128 : Shape := ⟨2, ![5000, 128]⟩
abbrev S10000x128 : Shape := ⟨2, ![10000, 128]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 43
  | .vmem => 18
  | .smem => 0
  | _ => 0

abbrev bufTy : (tb : Table) → Fin (tcTables nBuf tb) → BufTy
  | .hbm, ⟨0, _⟩ => ⟨S40000x256, .f32⟩
  | .hbm, ⟨1, _⟩ => ⟨S640000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S1x128, .f32⟩
  | .hbm, ⟨11, _⟩ => ⟨S40000x128, .f32⟩
  | .hbm, ⟨12, _⟩ => ⟨S1x128, .f32⟩
  | .hbm, ⟨13, _⟩ => ⟨S640000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S40000x256, .f32⟩
  | .hbm, ⟨41, _⟩ => ⟨S1x128, .f32⟩
  | .hbm, ⟨42, _⟩ => ⟨S40000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x256, .f32⟩
  | .local _ .vmem, ⟨13, _⟩ => ⟨S5000x256, .f32⟩
  | .local _ .vmem, ⟨14, _⟩ => ⟨S256x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  broadcasts_S1x128_S10000x128 : S1x128.Broadcasts S10000x128
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  shapeCasts_S5000x256_S5000x256 : S5000x256.ShapeCasts S5000x256
  dot_S5000x256_S256x128_S5000x128_1_0_0_1_n_n_wf : DotDims.WF S5000x256 S256x128 S5000x128 [1] [0] [0] [1] [] []
  dot_S10000x128_S128x128_S10000x128_1_0_0_1_n_n_wf : DotDims.WF S10000x128 S128x128 S10000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S40000x256.size a
  hwx0_0 : ∀ i : grid0.Coords, EltTy.bits .f32 = 32 ∨ (Rect.block (s := S40000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S640000x128.size a
  hwx1_0 : ∀ i : grid1.Coords, EltTy.bits .f32 = 32 ∨ (Rect.block (s := S640000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S640000x128.size a
  hwx1_3 : ∀ i : grid1.Coords, EltTy.bits .f32 = 32 ∨ (Rect.block (s := S640000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S40000x256.size a
  hwx2_0 : ∀ i : grid2.Coords, EltTy.bits .f32 = 32 ∨ (Rect.block (s := S40000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S40000x128.size a
  hwx2_3 : ∀ i : grid2.Coords, EltTy.bits .f32 = 32 ∨ (Rect.block (s := S40000x128) S5000x128.size (cc2_transform_3 i) (hinb2_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x256 : Shape := ⟨2, ![40000, 256]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S640000 : Shape := ⟨1, ![640000]⟩
abbrev S40000x128 : Shape := ⟨2, ![40000, 128]⟩
abbrev S1x128 : Shape := ⟨2, ![1, 128]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 49
  | .vmem => 0
  | .smem => 0
  | _ => 0

abbrev bufTy : (tb : Table) → Fin (tcTables nBuf tb) → BufTy
  | .hbm, ⟨0, _⟩ => ⟨S40000x256, .f32⟩
  | .hbm, ⟨1, _⟩ => ⟨S640000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S40000x128, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S640000x128, .f32⟩
  | .hbm, ⟨15, _⟩ => ⟨S1x128, .f32⟩
  | .hbm, ⟨16, _⟩ => ⟨S640000x128, .f32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S40000, .f32⟩
  | .hbm, ⟨36, _⟩ => ⟨S640000x1, .i32⟩
  | .hbm, ⟨37, _⟩ => ⟨S40000, .f32⟩
  | .hbm, ⟨38, _⟩ => ⟨S_, .f32⟩
  | .hbm, ⟨39, _⟩ => ⟨S40000, .f32⟩
  | .hbm, ⟨40, _⟩ => ⟨S40000, .f32⟩
  | .hbm, ⟨41, _⟩ => ⟨S40000x1, .f32⟩
  | .hbm, ⟨42, _⟩ => ⟨S40000x128, .f32⟩
  | .hbm, ⟨43, _⟩ => ⟨S40000x128, .f32⟩
  | .hbm, ⟨44, _⟩ => ⟨S40000x256, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  dot_S40000x256_S256x128_S40000x128_1_0_0_1_n_n_wf : DotDims.WF S40000x256 S256x128 S40000x128 [1] [0] [0] [1] [] []
  dot_S640000x128_S128x128_S640000x128_1_0_0_1_n_n_wf : DotDims.WF S640000x128 S128x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.RunAll.lean ====
/- The idealized kernel program's run with EVERY buffer named: from any launch memory with zero counters, every weakly
   fair execution of @main ends, faultless, with each unscoped buffer of each core holding the last segment boundary's
   contents — the fold of the three host stretches and the three pipelined regions from the launch memory. The frame
   claim keeps of this only the argument arrays; the value claim needs the result array too, so the launch theorem
   for a program of several regions is applied once more to the same segments with the reading of the final state
   kept whole. -/
import proofs.«122698_j30700426232196_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array and the ten argument arrays after the run: the result at the last boundary's contents, each
    argument as launched. -/
theorem run_result : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)
    (run_all m ρ)

end Cert.KernelIdeal.RunAll

end
-- ==== Proof.Payload.lean ====
/- The arithmetic of the three kernel bodies at the extended reals, read at one element of the block a grid point
   stores. Each body is the same formula on its own block sizes: entry (r, q) of the stored block is the sum, over the
   contraction axis k, of the left block's entry (r, k) times the weight block's entry (k, q), plus entry (0, q) of the
   bias row. The narrowing to bf16 in front of the matrix unit is the identity on extended reals, the accumulator the
   product is added into is the zero splat, and the body's shape casts are to the shape they start from. -/
import proofs.«122698_j30700426232196_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Blocks of 5000 rows against a [256, 128] weight (the node layer and the combining layer) -/

/-- Entry (row of `i`, `k`) of the [5000, 256] left block. -/
abbrev lrowA (i : S5000x128.Idx) (k : Fin 256) : S5000x256.Idx := fun a => match a with
  | ⟨0, _⟩ => ⟨(i 0).val, (i 0).isLt⟩
  | ⟨1, _⟩ => ⟨k.val, k.isLt⟩
/-- Entry (`k`, column of `i`) of the [256, 128] weight block. -/
abbrev wcolA (i : S5000x128.Idx) (k : Fin 256) : S256x128.Idx := fun a => match a with
  | ⟨0, _⟩ => ⟨k.val, k.isLt⟩
  | ⟨1, _⟩ => ⟨(i 1).val, (i 1).isLt⟩
/-- Entry (0, column of `i`) of the [1, 128] bias row. -/
abbrev bcolA (i : S5000x128.Idx) : S1x128.Idx := fun a => match a with
  | ⟨0, _⟩ => ⟨0, Nat.one_pos⟩
  | ⟨1, _⟩ => ⟨(i 1).val, (i 1).isLt⟩

theorem lhsA_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsA_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsA_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsA_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The matrix unit's product into the zero accumulator, at an element: the row of the left block against the column of
    the weight block, summed over the 256 contracted entries. -/
theorem mmA_apply (x : FVec Ideal S5000x256 .bf16) (w : FVec Ideal S256x128 .bf16) (i : S5000x128.Idx) :
    matmul dot_S5000x256_S256x128_S5000x128_1_0_0_1_n_n none x w (constant S5000x128 .f32 0x00000000#32) i
      = ∑ k : Fin 256, x (lrowA i k) * w (wcolA i k) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx i ((contrEquiv1 dot_S5000x256_S256x128_S5000x128_1_0_0_1_n_n 256 rfl rfl).symm k) = lrowA i k := funext fun a => Fin.ext (by
    match a with
    | ⟨0, _⟩ => exact lhsA_0 _ _
    | ⟨1, _⟩ => exact (lhsA_1 _ _).trans hk)
  have er : dot_S5000x256_S256x128_S5000x128_1_0_0_1_n_n.rhsIdx i ((contrEquiv1 dot_S5000x256_S256x128_S5000x128_1_0_0_1_n_n 256 rfl rfl).symm k) = wcolA i k := funext fun a => Fin.ext (by
    match a with
    | ⟨0, _⟩ => exact (rhsA_0 _ _).trans hk
    | ⟨1, _⟩ => exact rhsA_1 _ _)
  rw [el, er]

/-- The bias row, cast to its own shape and broadcast down the 5000 rows, at an element: the row's entry in that column. -/
theorem biasA_apply (b : FVec Ideal S1x128 .f32) (i : S5000x128.Idx) :
    broadcastTo S5000x128 (shapeCast S1x128 b shapeCasts_S1x128_S1x128) broadcasts_S1x128_S5000x128 i = b (bcolA i) := by
  rw [shapeCast_self]
  exact broadcastTo_apply b broadcasts_S1x128_S5000x128 i (bcolA i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- The node layer's body at an element of its stored block. -/
theorem pay0_apply (x0 : Vec Ideal S5000x256 .f32) (x1 : Vec Ideal S256x128 .f32) (x2 : Vec Ideal S1x128 .f32) (i : S5000x128.Idx) :
    k0_pay1 (F := Ideal) x0 x1 x2 i = (∑ k : Fin 256, x0 (lrowA i k) * x1 (wcolA i k)) + x2 (bcolA i) := by
  unfold k0_pay1
  show (matmul dot_S5000x256_S256x128_S5000x128_1_0_0_1_n_n none (truncf .bf16 x0 bitsLt_bf16_f32) (truncf .bf16 x1 bitsLt_bf16_f32) (constant S5000x128 .f32 0x00000000#32) : FVec Ideal S5000x128 .f32) i
      + (broadcastTo S5000x128 (shapeCast S1x128 x2 shapeCasts_S1x128_S1x128) broadcasts_S1x128_S5000x128 : FVec Ideal S5000x128 .f32) i = _
  rw [mmA_apply, biasA_apply]
  rfl

/-- The combining layer's body at an element of its stored block (its left block is first cast to its own shape). -/
theorem pay2_apply (x0 : Vec Ideal S5000x256 .f32) (x1 : Vec Ideal S256x128 .f32) (x2 : Vec Ideal S1x128 .f32) (i : S5000x128.Idx) :
    k2_pay1 (F := Ideal) x0 x1 x2 i = (∑ k : Fin 256, x0 (lrowA i k) * x1 (wcolA i k)) + x2 (bcolA i) := by
  unfold k2_pay1
  show (matmul dot_S5000x256_S256x128_S5000x128_1_0_0_1_n_n none (truncf .bf16 (shapeCast S5000x256 x0 shapeCasts_S5000x256_S5000x256) bitsLt_bf16_f32) (truncf .bf16 x1 bitsLt_bf16_f32) (constant S5000x128 .f32 0x00000000#32) : FVec Ideal S5000x128 .f32) i
      + (broadcastTo S5000x128 (shapeCast S1x128 x2 shapeCasts_S1x128_S1x128) broadcasts_S1x128_S5000x128 : FVec Ideal S5000x128 .f32) i = _
  rw [mmA_apply, biasA_apply, shapeCast_self]
  rfl

/-! ## Blocks of 10000 rows against a [128, 128] weight (the edge layer) -/

/-- Entry (row of `i`, `k`) of the [10000, 128] left block. -/
abbrev lrowB (i : S10000x128.Idx) (k : Fin 128) : S10000x128.Idx := fun a => match a with
  | ⟨0, _⟩ => ⟨(i 0).val, (i 0).isLt⟩
  | ⟨1, _⟩ => ⟨k.val, k.isLt⟩
/-- Entry (`k`, column of `i`) of the [128, 128] weight block. -/
abbrev wcolB (i : S10000x128.Idx) (k : Fin 128) : S128x128.Idx := fun a => match a with
  | ⟨0, _⟩ => ⟨k.val, k.isLt⟩
  | ⟨1, _⟩ => ⟨(i 1).val, (i 1).isLt⟩
/-- Entry (0, column of `i`) of the [1, 128] bias row. -/
abbrev bcolB (i : S10000x128.Idx) : S1x128.Idx := fun a => match a with
  | ⟨0, _⟩ => ⟨0, Nat.one_pos⟩
  | ⟨1, _⟩ => ⟨(i 1).val, (i 1).isLt⟩

theorem lhsB_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsB_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsB_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsB_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix unit's product into the zero accumulator, at an element: the row of the left block against the column of
    the weight block, summed over the 128 contracted entries. -/
theorem mmB_apply (x : FVec Ideal S10000x128 .bf16) (w : FVec Ideal S128x128 .bf16) (i : S10000x128.Idx) :
    matmul dot_S10000x128_S128x128_S10000x128_1_0_0_1_n_n none x w (constant S10000x128 .f32 0x00000000#32) i
      = ∑ k : Fin 128, x (lrowB i k) * w (wcolB i k) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i ((contrEquiv1 dot_S10000x128_S128x128_S10000x128_1_0_0_1_n_n 128 rfl rfl).symm k) = lrowB i k := funext fun a => Fin.ext (by
    match a with
    | ⟨0, _⟩ => exact lhsB_0 _ _
    | ⟨1, _⟩ => exact (lhsB_1 _ _).trans hk)
  have er : dot_S10000x128_S128x128_S10000x128_1_0_0_1_n_n.rhsIdx i ((contrEquiv1 dot_S10000x128_S128x128_S10000x128_1_0_0_1_n_n 128 rfl rfl).symm k) = wcolB i k := funext fun a => Fin.ext (by
    match a with
    | ⟨0, _⟩ => exact (rhsB_0 _ _).trans hk
    | ⟨1, _⟩ => exact rhsB_1 _ _)
  rw [el, er]

/-- The bias row, cast to its own shape and broadcast down the 10000 rows, at an element. -/
theorem biasB_apply (b : FVec Ideal S1x128 .f32) (i : S10000x128.Idx) :
    broadcastTo S10000x128 (shapeCast S1x128 b shapeCasts_S1x128_S1x128) broadcasts_S1x128_S10000x128 i = b (bcolB i) := by
  rw [shapeCast_self]
  exact broadcastTo_apply b broadcasts_S1x128_S10000x128 i (bcolB i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- The edge layer's body at an element of its stored block. -/
theorem pay1_apply (x0 : Vec Ideal S10000x128 .f32) (x1 : Vec Ideal S128x128 .f32) (x2 : Vec Ideal S1x128 .f32) (i : S10000x128.Idx) :
    k1_pay1 (F := Ideal) x0 x1 x2 i = (∑ k : Fin 128, x0 (lrowB i k) * x1 (wcolB i k)) + x2 (bcolB i) := by
  unfold k1_pay1
  show (matmul dot_S10000x128_S128x128_S10000x128_1_0_0_1_n_n none (truncf .bf16 x0 bitsLt_bf16_f32) (truncf .bf16 x1 bitsLt_bf16_f32) (constant S10000x128 .f32 0x00000000#32) : FVec Ideal S10000x128 .f32) i
      + (broadcastTo S10000x128 (shapeCast S1x128 x2 shapeCasts_S1x128_S1x128) broadcasts_S1x128_S10000x128 : FVec Ideal S10000x128 .f32) i = _
  rw [mmB_apply, biasB_apply]
  rfl

end Cert.KernelIdeal.Pay

end
-- ==== Proof.RefLayers.lean ====
/- The reference's three dense layers and its shared middle part as functions of arrays, at the extended reals.
   A dense layer is x ↦ x · w + b with the bias row repeated down the rows: element (r, q) is the sum over k of
   x (r, k) · w (k, q), plus b q. The middle part — gather the source rows of the node features, add the edge features,
   sum the messages per destination node, divide by the in-degree clipped below at one, and join the node features with
   that mean side by side — is carried as ONE function of the two layers' outputs and the two index arrays: the kernel's
   program applies the same host operations to its own layers' outputs, so it is never opened. -/
import proofs.«122698_j30700426232196_1_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe

/-- The node layer (and, on the joined features, the combining layer) at an element: the row of `x` against the column
    of `w`, summed over the 256 contracted entries, plus the bias entry of that column. -/
theorem node_apply (x : (⟨S40000x256, .f32⟩ : BufTy).Contents (Elt Ideal)) (w : (⟨S256x128, .f32⟩ : BufTy).Contents (Elt Ideal))
    (b : (⟨S128, .f32⟩ : BufTy).Contents (Elt Ideal)) (i : S40000x128.Idx) :
    val_main_v3 (F := Ideal) x w b i
      = (∑ k : Fin 256, x (lidx_main_v0 i k) * w (ridx_main_v0 i k)) + b (idx_main_v1 (idx_main_v2 i)) := by
  rw [val_main_v3_apply, val_main_v0_apply, val_main_v2_apply, val_main_v1_apply]
  rfl

/-- The edge layer at an element: the row of `x` against the column of `w`, summed over the 128 contracted entries, plus
    the bias entry of that column. -/
theorem edge_apply (x : (⟨S640000x128, .f32⟩ : BufTy).Contents (Elt Ideal)) (w : (⟨S128x128, .f32⟩ : BufTy).Contents (Elt Ideal))
    (b : (⟨S128, .f32⟩ : BufTy).Contents (Elt Ideal)) (i : S640000x128.Idx) :
    val_main_v7 (F := Ideal) x w b i
      = (∑ k : Fin 128, x (lidx_main_v4 i k) * w (ridx_main_v4 i k)) + b (idx_main_v5 (idx_main_v6 i)) := by
  rw [val_main_v7_apply, val_main_v4_apply, val_main_v6_apply, val_main_v5_apply]
  rfl

/-- The middle part, from the node layer's output `h`, the edge layer's output `e`, and the source and destination
    index arrays: `[h | segment_mean (h[src] + e, dst)]`, a negative source index wrapped once by the row count. -/
def mid (h : (⟨S40000x128, .f32⟩ : BufTy).Contents (Elt Ideal)) (e : (⟨S640000x128, .f32⟩ : BufTy).Contents (Elt Ideal))
    (src dst : (⟨S640000, .i32⟩ : BufTy).Contents (Elt Ideal)) : (⟨S40000x256, .f32⟩ : BufTy).Contents (Elt Ideal) :=
  concatenate S40000x256 1 [⟨S40000x128, h⟩, ⟨S40000x128, (Host.divf (F := Ideal) (Host.scatterAdd (F := Ideal) scatter_S40000x128_S640000x1_S640000x128_1_0_0_1 (broadcastInDim S40000x128 ![] bcast_S_S40000x128 (constant (F := Ideal) S_ .f32 0x00000000#32)) (broadcastInDim S640000x1 ![0] bcast_S640000_S640000x1_0 (dst)) (addf (F := Ideal) (Host.gather gather_S40000x128_S640000x1_S640000x128_1_0_n_n_0_1_1128 h (broadcastInDim S640000x1 ![0] bcast_S640000_S640000x1_0 (select (cmpi .slt (src) (broadcastInDim S640000 ![] bcast_S_S640000 (constantI S_ 32 0#32))) (addi (src) (broadcastInDim S640000 ![] bcast_S_S640000 (constantI S_ 32 40000#32))) (src)))) e)) (broadcastInDim S40000x128 ![0, 1] bcast_S40000x1_S40000x128_0_1 (broadcastInDim S40000x1 ![0] bcast_S40000_S40000x1_0 (maximumf (F := Ideal) (Host.scatterAdd (F := Ideal) scatter_S40000_S640000x1_S640000_n_0_0_1 (broadcastInDim S40000 ![] bcast_S_S40000 (constant (F := Ideal) S_ .f32 0x00000000#32)) (broadcastInDim S640000x1 ![0] bcast_S640000_S640000x1_0 (dst)) (broadcastInDim S640000 ![] bcast_S_S640000 (constant (F := Ideal) S_ .f32 0x3F800000#32))) (broadcastInDim S40000 ![] bcast_S_S40000 (constant (F := Ideal) S_ .f32 0x3F800000#32))))))⟩] concatenates_S40000x128_S40000x128_S40000x256_d1

/-- The reference's result is the combining layer of the middle part of the node and edge layers. -/
theorem result_eq (x0 : (⟨S40000x256, .f32⟩ : BufTy).Contents (Elt Ideal)) (x1 : (⟨S640000x128, .f32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 x9 : (⟨S640000, .i32⟩ : BufTy).Contents (Elt Ideal)) :
    val_main_v32 (F := Ideal) x0 x1 x2 x3 x4 x5 x6 x7 x8 x9
      = val_main_v3 (F := Ideal) (mid (val_main_v3 (F := Ideal) x0 x2 x3) (val_main_v7 (F := Ideal) x1 x4 x5) x8 x9) x6 x7 := rfl

end Cert.ReferenceIdeal.Layers

end
-- ==== Proof.NodeLayer.lean ====
/- The node layer's region (the first pallas_call) read as a whole array. At grid point t the body stores, into rows
   5000·t … 5000·t + 4999 of the result, the product of those rows of the left operand with the whole weight plus the
   bias row; the eight blocks tile the 40000 rows, so after the region the result array is the dense layer
   x · w + b of the arrays the region was entered with — the same function the reference's node layer is. -/
import proofs.«122698_j30700426232196_1_alg».proof.Proof.Gen.KernelIdeal.Frame
import proofs.«122698_j30700426232196_1_alg».proof.Proof.Payload
import proofs.«122698_j30700426232196_1_alg».proof.Proof.RefLayers
import Idealize.ShloMosaic.Lib.Pipeline.Value

noncomputable section

namespace Cert.KernelIdeal.NodeLayer

open Cert.KernelIdeal Cert.KernelIdeal.Gen Idealize.ShloMosaic Idealize.ShloMosaic.TcCoe Idealize.SL.Sem
open Idealize.ShloMosaic.Pipeline (Dat)

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 8 grid points: the left operand's and the result's blocks move down the
    rows with the point, the weight and the bias row stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `5000·t … 5000·t + 4999` of its array. -/
theorem left_read (c : Dev nD) (t : Fin cfg0.N) (y : S5000x256.Idx) (i : S40000x256.Idx)
    (h0 : (i 0).val = t.val * 5000 + (y 0).val) (h1 : (i 1).val = (y 1).val) :
    (iblk0 V c 0 t : Vec Ideal S5000x256 .f32) y = (V c main_arg0 : S40000x256.Idx → EReal) i := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight's one block is the whole weight array. -/
theorem weight_read (c : Dev nD) (t : Fin cfg0.N) (y : S256x128.Idx) (i : S256x128.Idx)
    (h0 : (i 0).val = (y 0).val) (h1 : (i 1).val = (y 1).val) :
    (iblk0 V c 1 t : Vec Ideal S256x128 .f32) y = (V c main_arg2 : S256x128.Idx → EReal) i := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * (y 0).val = (i 0).val; rw [e2, h0]; omega
  | ⟨1, _⟩ => show win0_1.index t (1 : Fin 2) * 128 + 1 * (y 1).val = (i 1).val; rw [e3, h1]; omega

/-- The bias row's one block is the whole [1, 128] row. -/
theorem bias_read (c : Dev nD) (t : Fin cfg0.N) (y : S1x128.Idx) (i : S1x128.Idx)
    (h0 : (i 0).val = (y 0).val) (h1 : (i 1).val = (y 1).val) :
    (iblk0 V c 2 t : Vec Ideal S1x128 .f32) y = (V c main_v0 : S1x128.Idx → EReal) i := by
  obtain ⟨-, -, -, -, e4, e5, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * (y 0).val = (i 0).val; rw [e4, h0]; omega
  | ⟨1, _⟩ => show win0_2.index t (1 : Fin 2) * 128 + 1 * (y 1).val = (i 1).val; rw [e5, h1]; omega

/-- WHAT POINT `t` WRITES BACK is block `t` of the dense layer of the arrays the region finds, the bias row being the
    bias vector `b` laid out as one row. -/
theorem flushed_eq (c : Dev nD) (b : (⟨Cert.ReferenceIdeal.S128, .f32⟩ : BufTy).Contents (Elt Ideal))
    (hb : ∀ y : S1x128.Idx, (V c main_v0 : S1x128.Idx → EReal) y = b (Cert.ReferenceIdeal.Read.idx_main_v1 y)) (t : Fin cfg0.N) :
    (dat0 V c).flushed 3 t
      = ((cfg0.win 3).blk t).view.read (Elt Ideal) (Cert.ReferenceIdeal.Read.val_main_v3 (F := Ideal) (V c main_arg0) (V c main_arg2) b) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨-, -, -, -, -, -, e6, e7⟩ := idx_facts t
  funext j
  show k0_pay1 (F := Ideal) (iblk0 V c 0 t) (iblk0 V c 1 t) (iblk0 V c 2 t) j
    = Cert.ReferenceIdeal.Read.val_main_v3 (F := Ideal) (V c main_arg0) (V c main_arg2) b (((cfg0.win 3).blk t).view.emb j)
  have hi0 : ((((cfg0.win 3).blk t).view.emb j) 0).val = t.val * 5000 + (j 0).val := by
    show win0_3.index t (0 : Fin 2) * 5000 + 1 * (j 0).val = _; rw [e6]; omega
  have hi1 : ((((cfg0.win 3).blk t).view.emb j) 1).val = (j 1).val := by
    show win0_3.index t (1 : Fin 2) * 128 + 1 * (j 1).val = _; rw [e7]; omega
  refine (Pay.pay0_apply (iblk0 V c 0 t) (iblk0 V c 1 t) (iblk0 V c 2 t) j).trans ?_
  refine Eq.trans ?_ (Cert.ReferenceIdeal.Layers.node_apply (V c main_arg0) (V c main_arg2) b (((cfg0.win 3).blk t).view.emb j)).symm
  refine congrArg₂ (· + ·) (Finset.sum_congr rfl fun k _ => congrArg₂ (· * ·) ?_ ?_) ?_
  · exact left_read V c t (Pay.lrowA j k) _ hi0.symm.symm rfl
  · exact weight_read V c t (Pay.wcolA j k) _ rfl hi1
  · refine (bias_read V c t (Pay.bcolA j) (Pay.bcolA j) rfl rfl).trans ((hb _).trans (congrArg b (funext fun a => Fin.ext ?_)))
    match a with
    | ⟨0, _⟩ => exact hi1.symm

/-- An index of the result array is in point `t`'s block iff each coordinate is in the block's range on its axis. -/
theorem mem_blk (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row `r` of the result array is in the block of point `r / 5000`: the blocks tile the array. -/
theorem cover (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ : ∃ t : Fin cfg0.N, t.val = (i 0).val / 5000 :=
    ⟨⟨(i 0).val / 5000, by rw [show cfg0.N = 8 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- THE RESULT ARRAY after the region: the dense layer of the arrays the region was entered with. -/
theorem final (c : Dev nD) (b : (⟨Cert.ReferenceIdeal.S128, .f32⟩ : BufTy).Contents (Elt Ideal))
    (hb : ∀ y : S1x128.Idx, (V c main_v0 : S1x128.Idx → EReal) y = b (Cert.ReferenceIdeal.Read.idx_main_v1 y)) :
    (dat0 V c).arrAt 3 cfg0.N = Cert.ReferenceIdeal.Read.val_main_v3 (F := Ideal) (V c main_arg0) (V c main_arg2) b :=
  (dat0 V c).arrAt_eq_of_cover 3 (Cert.ReferenceIdeal.Read.val_main_v3 (F := Ideal) (V c main_arg0) (V c main_arg2) b)
    (fun t _ => flushed_eq V c b hb t) cover

end Cert.KernelIdeal.NodeLayer

end
-- ==== Proof.EdgeLayer.lean ====
/- The edge layer's region (the second pallas_call) read as a whole array. At grid point t the body stores, into rows
   10000·t … 10000·t + 9999 of the result, the product of those rows of the left operand with the whole weight plus the
   bias row; the sixty-four blocks tile the 640000 rows, so after the region the result array is the dense layer
   x · w + b of the arrays the region was entered with — the same function the reference's edge layer is. -/
import proofs.«122698_j30700426232196_1_alg».proof.Proof.Gen.KernelIdeal.Frame
import proofs.«122698_j30700426232196_1_alg».proof.Proof.Payload
import proofs.«122698_j30700426232196_1_alg».proof.Proof.RefLayers
import Idealize.ShloMosaic.Lib.Pipeline.Value

noncomputable section

namespace Cert.KernelIdeal.EdgeLayer

open Cert.KernelIdeal Cert.KernelIdeal.Gen Idealize.ShloMosaic Idealize.ShloMosaic.TcCoe Idealize.SL.Sem
open Idealize.ShloMosaic.Pipeline (Dat)

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 64 grid points: the left operand's and the result's blocks move down the
    rows with the point, the weight and the bias row stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `10000·t … 10000·t + 9999` of its array. -/
theorem left_read (c : Dev nD) (t : Fin cfg1.N) (y : S10000x128.Idx) (i : S640000x128.Idx)
    (h0 : (i 0).val = t.val * 10000 + (y 0).val) (h1 : (i 1).val = (y 1).val) :
    (iblk1 V c 0 t : Vec Ideal S10000x128 .f32) y = (V c main_arg1 : S640000x128.Idx → EReal) i := by
  obtain ⟨e0, e1, -⟩ := idx_facts t
  unfold iblk1
  rw [View.read_apply]
  show V c main_arg1 _ = V c main_arg1 _
  refine congrArg (V c main_arg1) (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weight's one block is the whole weight array. -/
theorem weight_read (c : Dev nD) (t : Fin cfg1.N) (y : S128x128.Idx) (i : S128x128.Idx)
    (h0 : (i 0).val = (y 0).val) (h1 : (i 1).val = (y 1).val) :
    (iblk1 V c 1 t : Vec Ideal S128x128 .f32) y = (V c main_arg4 : S128x128.Idx → EReal) i := by
  obtain ⟨-, -, e2, e3, -⟩ := idx_facts t
  unfold iblk1
  rw [View.read_apply]
  show V c main_arg4 _ = V c main_arg4 _
  refine congrArg (V c main_arg4) (funext fun a => Fin.ext ?_)
  match a with
  | ⟨0, _⟩ => show win1_1.index t (0 : Fin 2) * 128 + 1 * (y 0).val = (i 0).val; rw [e2, h0]; omega
  | ⟨1, _⟩ => show win1_1.index t (1 : Fin 2) * 128 + 1 * (y 1).val = (i 1).val; rw [e3, h1]; omega

/-- The bias row's one block is the whole [1, 128] row. -/
theorem bias_read (c : Dev nD) (t : Fin cfg1.N) (y : S1x128.Idx) (i : S1x128.Idx)
    (h0 : (i 0).val = (y 0).val) (h1 : (i 1).val = (y 1).val) :
    (iblk1 V c 2 t : Vec Ideal S1x128 .f32) y = (V c main_v2 : S1x128.Idx → EReal) i := by
  obtain ⟨-, -, -, -, e4, e5, -⟩ := idx_facts t
  unfold iblk1
  rw [View.read_apply]
  show V c main_v2 _ = V c main_v2 _
  refine congrArg (V c main_v2) (funext fun a => Fin.ext ?_)
  match a with
  | ⟨0, _⟩ => show win1_2.index t (0 : Fin 2) * 1 + 1 * (y 0).val = (i 0).val; rw [e4, h0]; omega
  | ⟨1, _⟩ => show win1_2.index t (1 : Fin 2) * 128 + 1 * (y 1).val = (i 1).val; rw [e5, h1]; omega

/-- WHAT POINT `t` WRITES BACK is block `t` of the dense layer of the arrays the region finds, the bias row being the
    bias vector `b` laid out as one row. -/
theorem flushed_eq (c : Dev nD) (b : (⟨Cert.ReferenceIdeal.S128, .f32⟩ : BufTy).Contents (Elt Ideal))
    (hb : ∀ y : S1x128.Idx, (V c main_v2 : S1x128.Idx → EReal) y = b (Cert.ReferenceIdeal.Read.idx_main_v5 y)) (t : Fin cfg1.N) :
    (dat1 V c).flushed 3 t
      = ((cfg1.win 3).blk t).view.read (Elt Ideal) (Cert.ReferenceIdeal.Read.val_main_v7 (F := Ideal) (V c main_arg1) (V c main_arg4) b) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨-, -, -, -, -, -, e6, e7⟩ := idx_facts t
  funext j
  show k1_pay1 (F := Ideal) (iblk1 V c 0 t) (iblk1 V c 1 t) (iblk1 V c 2 t) j
    = Cert.ReferenceIdeal.Read.val_main_v7 (F := Ideal) (V c main_arg1) (V c main_arg4) b (((cfg1.win 3).blk t).view.emb j)
  have hi0 : ((((cfg1.win 3).blk t).view.emb j) 0).val = t.val * 10000 + (j 0).val := by
    show win1_3.index t (0 : Fin 2) * 10000 + 1 * (j 0).val = _; rw [e6]; omega
  have hi1 : ((((cfg1.win 3).blk t).view.emb j) 1).val = (j 1).val := by
    show win1_3.index t (1 : Fin 2) * 128 + 1 * (j 1).val = _; rw [e7]; omega
  refine (Pay.pay1_apply (iblk1 V c 0 t) (iblk1 V c 1 t) (iblk1 V c 2 t) j).trans ?_
  refine Eq.trans ?_ (Cert.ReferenceIdeal.Layers.edge_apply (V c main_arg1) (V c main_arg4) b (((cfg1.win 3).blk t).view.emb j)).symm
  refine congrArg₂ (· + ·) (Finset.sum_congr rfl fun k _ => congrArg₂ (· * ·) ?_ ?_) ?_
  · exact left_read V c t (Pay.lrowB j k) _ hi0.symm.symm rfl
  · exact weight_read V c t (Pay.wcolB j k) _ rfl hi1
  · refine (bias_read V c t (Pay.bcolB j) (Pay.bcolB j) rfl rfl).trans ((hb _).trans (congrArg b (funext fun a => Fin.ext ?_)))
    match a with
    | ⟨0, _⟩ => exact hi1.symm

/-- An index of the result array is in point `t`'s block iff each coordinate is in the block's range on its axis. -/
theorem mem_blk (t : Fin cfg1.N) (i : S640000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v3).slice (win1_3.rect t)).set ↔ _
  rw [View.set_slice_whole, Rect.mem_set_unit]
  exact Iff.rfl

/-- Row `r` of the result array is in the block of point `r / 10000`: the blocks tile the array. -/
theorem cover (i : S640000x128.Idx) : ∃ t : Fin cfg1.N, (cfg1.win 3).flush t = true ∧ i ∈ ((cfg1.win 3).blk t).view.set := by
  have hi0 : (i 0).val < 640000 := (i 0).isLt
  have hi1 : (i 1).val < 128 := (i 1).isLt
  obtain ⟨t, ht⟩ : ∃ t : Fin cfg1.N, t.val = (i 0).val / 10000 :=
    ⟨⟨(i 0).val / 10000, by rw [show cfg1.N = 64 from N_1]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 128 ≤ (i 1).val ∧ (i 1).val < win1_3.index t (1 : Fin 2) * 128 + 128; rw [e7]; omega

/-- THE RESULT ARRAY after the region: the dense layer of the arrays the region was entered with. -/
theorem final (c : Dev nD) (b : (⟨Cert.ReferenceIdeal.S128, .f32⟩ : BufTy).Contents (Elt Ideal))
    (hb : ∀ y : S1x128.Idx, (V c main_v2 : S1x128.Idx → EReal) y = b (Cert.ReferenceIdeal.Read.idx_main_v5 y)) :
    (dat1 V c).arrAt 3 cfg1.N = Cert.ReferenceIdeal.Read.val_main_v7 (F := Ideal) (V c main_arg1) (V c main_arg4) b :=
  (dat1 V c).arrAt_eq_of_cover 3 (Cert.ReferenceIdeal.Read.val_main_v7 (F := Ideal) (V c main_arg1) (V c main_arg4) b)
    (fun t _ => flushed_eq V c b hb t) cover

end Cert.KernelIdeal.EdgeLayer

end
-- ==== Proof.CombineLayer.lean ====
/- The combining layer's region (the third pallas_call) read as a whole array. At grid point t the body stores, into
   rows 5000·t … 5000·t + 4999 of the result, the product of those rows of the joined features with the whole weight plus
   the bias row; the eight blocks tile the 40000 rows, so after the region the result array is the dense layer
   x · w + b of the arrays the region was entered with — the same function the reference's last layer is. -/
import proofs.«122698_j30700426232196_1_alg».proof.Proof.Gen.KernelIdeal.Frame
import proofs.«122698_j30700426232196_1_alg».proof.Proof.Payload
import proofs.«122698_j30700426232196_1_alg».proof.Proof.RefLayers
import Idealize.ShloMosaic.Lib.Pipeline.Value

noncomputable section

namespace Cert.KernelIdeal.CombineLayer

open Cert.KernelIdeal Cert.KernelIdeal.Gen Idealize.ShloMosaic Idealize.ShloMosaic.TcCoe Idealize.SL.Sem
open Idealize.ShloMosaic.Pipeline (Dat)

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 8 grid points: the left operand's and the result's blocks move down the
    rows with the point, the weight and the bias row stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `5000·t … 5000·t + 4999` of its array. -/
theorem left_read (c : Dev nD) (t : Fin cfg2.N) (y : S5000x256.Idx) (i : S40000x256.Idx)
    (h0 : (i 0).val = t.val * 5000 + (y 0).val) (h1 : (i 1).val = (y 1).val) :
    (iblk2 V c 0 t : Vec Ideal S5000x256 .f32) y = (V c main_v24 : S40000x256.Idx → EReal) i := by
  obtain ⟨e0, e1, -⟩ := idx_facts t
  unfold iblk2
  rw [View.read_apply]
  show V c main_v24 _ = V c main_v24 _
  refine congrArg (V c main_v24) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 256 + 1 * (y 1).val = (i 1).val; rw [e1, h1]; omega

/-- The weight's one block is the whole weight array. -/
theorem weight_read (c : Dev nD) (t : Fin cfg2.N) (y : S256x128.Idx) (i : S256x128.Idx)
    (h0 : (i 0).val = (y 0).val) (h1 : (i 1).val = (y 1).val) :
    (iblk2 V c 1 t : Vec Ideal S256x128 .f32) y = (V c main_arg6 : S256x128.Idx → EReal) i := by
  obtain ⟨-, -, e2, e3, -⟩ := idx_facts t
  unfold iblk2
  rw [View.read_apply]
  show V c main_arg6 _ = V c main_arg6 _
  refine congrArg (V c main_arg6) (funext fun a => Fin.ext ?_)
  match a with
  | ⟨0, _⟩ => show win2_1.index t (0 : Fin 2) * 256 + 1 * (y 0).val = (i 0).val; rw [e2, h0]; omega
  | ⟨1, _⟩ => show win2_1.index t (1 : Fin 2) * 128 + 1 * (y 1).val = (i 1).val; rw [e3, h1]; omega

/-- The bias row's one block is the whole [1, 128] row. -/
theorem bias_read (c : Dev nD) (t : Fin cfg2.N) (y : S1x128.Idx) (i : S1x128.Idx)
    (h0 : (i 0).val = (y 0).val) (h1 : (i 1).val = (y 1).val) :
    (iblk2 V c 2 t : Vec Ideal S1x128 .f32) y = (V c main_v25 : S1x128.Idx → EReal) i := by
  obtain ⟨-, -, -, -, e4, e5, -⟩ := idx_facts t
  unfold iblk2
  rw [View.read_apply]
  show V c main_v25 _ = V c main_v25 _
  refine congrArg (V c main_v25) (funext fun a => Fin.ext ?_)
  match a with
  | ⟨0, _⟩ => show win2_2.index t (0 : Fin 2) * 1 + 1 * (y 0).val = (i 0).val; rw [e4, h0]; omega
  | ⟨1, _⟩ => show win2_2.index t (1 : Fin 2) * 128 + 1 * (y 1).val = (i 1).val; rw [e5, h1]; omega

/-- WHAT POINT `t` WRITES BACK is block `t` of the dense layer of the arrays the region finds, the bias row being the
    bias vector `b` laid out as one row. -/
theorem flushed_eq (c : Dev nD) (b : (⟨Cert.ReferenceIdeal.S128, .f32⟩ : BufTy).Contents (Elt Ideal))
    (hb : ∀ y : S1x128.Idx, (V c main_v25 : S1x128.Idx → EReal) y = b (Cert.ReferenceIdeal.Read.idx_main_v1 y)) (t : Fin cfg2.N) :
    (dat2 V c).flushed 3 t
      = ((cfg2.win 3).blk t).view.read (Elt Ideal) (Cert.ReferenceIdeal.Read.val_main_v3 (F := Ideal) (V c main_v24) (V c main_arg6) b) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x128) hz, View.ld_unit_zero (S := S1x128) hz]
  obtain ⟨-, -, -, -, -, -, e6, e7⟩ := idx_facts t
  funext j
  show k2_pay1 (F := Ideal) (iblk2 V c 0 t) (iblk2 V c 1 t) (iblk2 V c 2 t) j
    = Cert.ReferenceIdeal.Read.val_main_v3 (F := Ideal) (V c main_v24) (V c main_arg6) b (((cfg2.win 3).blk t).view.emb j)
  have hi0 : ((((cfg2.win 3).blk t).view.emb j) 0).val = t.val * 5000 + (j 0).val := by
    show win2_3.index t (0 : Fin 2) * 5000 + 1 * (j 0).val = _; rw [e6]; omega
  have hi1 : ((((cfg2.win 3).blk t).view.emb j) 1).val = (j 1).val := by
    show win2_3.index t (1 : Fin 2) * 128 + 1 * (j 1).val = _; rw [e7]; omega
  refine (Pay.pay2_apply (iblk2 V c 0 t) (iblk2 V c 1 t) (iblk2 V c 2 t) j).trans ?_
  refine Eq.trans ?_ (Cert.ReferenceIdeal.Layers.node_apply (V c main_v24) (V c main_arg6) b (((cfg2.win 3).blk t).view.emb j)).symm
  refine congrArg₂ (· + ·) (Finset.sum_congr rfl fun k _ => congrArg₂ (· * ·) ?_ ?_) ?_
  · exact left_read V c t (Pay.lrowA j k) _ hi0.symm.symm rfl
  · exact weight_read V c t (Pay.wcolA j k) _ rfl hi1
  · refine (bias_read V c t (Pay.bcolA j) (Pay.bcolA j) rfl rfl).trans ((hb _).trans (congrArg b (funext fun a => Fin.ext ?_)))
    match a with
    | ⟨0, _⟩ => exact hi1.symm

/-- An index of the result array is in point `t`'s block iff each coordinate is in the block's range on its axis. -/
theorem mem_blk (t : Fin cfg2.N) (i : S40000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v26).slice (win2_3.rect t)).set ↔ _
  rw [View.set_slice_whole, Rect.mem_set_unit]
  exact Iff.rfl

/-- Row `r` of the result array is in the block of point `r / 5000`: the blocks tile the array. -/
theorem cover (i : S40000x128.Idx) : ∃ t : Fin cfg2.N, (cfg2.win 3).flush t = true ∧ i ∈ ((cfg2.win 3).blk t).view.set := by
  have hi0 : (i 0).val < 40000 := (i 0).isLt
  have hi1 : (i 1).val < 128 := (i 1).isLt
  obtain ⟨t, ht⟩ : ∃ t : Fin cfg2.N, t.val = (i 0).val / 5000 :=
    ⟨⟨(i 0).val / 5000, by rw [show cfg2.N = 8 from N_2]; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

/-- THE RESULT ARRAY after the region: the dense layer of the arrays the region was entered with. -/
theorem final (c : Dev nD) (b : (⟨Cert.ReferenceIdeal.S128, .f32⟩ : BufTy).Contents (Elt Ideal))
    (hb : ∀ y : S1x128.Idx, (V c main_v25 : S1x128.Idx → EReal) y = b (Cert.ReferenceIdeal.Read.idx_main_v1 y)) :
    (dat2 V c).arrAt 3 cfg2.N = Cert.ReferenceIdeal.Read.val_main_v3 (F := Ideal) (V c main_v24) (V c main_arg6) b :=
  (dat2 V c).arrAt_eq_of_cover 3 (Cert.ReferenceIdeal.Read.val_main_v3 (F := Ideal) (V c main_v24) (V c main_arg6) b)
    (fun t _ => flushed_eq V c b hb t) cover

end Cert.KernelIdeal.CombineLayer

end
-- ==== Proof.Fold.lean ====
/- The idealized kernel program's result array as ONE function of the launch memory: the fold of @main's segments read
   back at the result buffer. The last region leaves the combining layer of its three operands; the first of them is
   what the third host stretch left — the shared middle part applied to the first two regions' results —, and those are
   the node layer and the edge layer of the argument arrays; every argument array, and every bias vector laid out as a
   one-row array by a host reshape, is read back through the fold to the launch memory. So the result is the combining
   layer of the middle part of the node and edge layers of the arguments: the reference's own term. -/
import proofs.«122698_j30700426232196_1_alg».proof.Proof.Gen.KernelIdeal.Frame
import proofs.«122698_j30700426232196_1_alg».proof.Proof.NodeLayer
import proofs.«122698_j30700426232196_1_alg».proof.Proof.EdgeLayer
import proofs.«122698_j30700426232196_1_alg».proof.Proof.CombineLayer
import proofs.«122698_j30700426232196_1_alg».proof.Proof.RefLayers
import Idealize.ShloMosaic.Lib.StableHlo.Run
import Idealize.ShloMosaic.Lib.Pipeline.Value

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- A bias vector laid out as a one-row array by a reshape has, in column q, the vector's entry q. -/
theorem row_of_reshape (b : S128.Idx → EReal) (y : S1x128.Idx) :
    shapeCast S1x128 b shapeCasts_S128_S1x128 y = b (Cert.ReferenceIdeal.Read.idx_main_v1 y) := by
  refine shapeCast_apply b shapeCasts_S128_S1x128 y (Cert.ReferenceIdeal.Read.idx_main_v1 y) ?_
  rw [Shape.rowMajor_val_one, Shape.rowMajor_val_two]
  have h0 : (y 0).val < 1 := (y 0).isLt
  show (y 1).val = (y 0).val * 128 + (y 1).val
  omega

/-! ## At the first region's entry -/

theorem W1_arg0 : W1 m ρ c (Proc.devRef .tc main_arg0) = m ((c : Thread nD τ).loc main_arg0) := by
  show StableHlo.after hostOps0 (W0 m ρ c) (Proc.devRef .tc main_arg0) = _
  dsimp only [hostOps0]; after_results_simp <;> rfl
theorem W1_arg2 : W1 m ρ c (Proc.devRef .tc main_arg2) = m ((c : Thread nD τ).loc main_arg2) := by
  show StableHlo.after hostOps0 (W0 m ρ c) (Proc.devRef .tc main_arg2) = _
  dsimp only [hostOps0]; after_results_simp <;> rfl
theorem W1_arg1 : W1 m ρ c (Proc.devRef .tc main_arg1) = m ((c : Thread nD τ).loc main_arg1) := by
  show StableHlo.after hostOps0 (W0 m ρ c) (Proc.devRef .tc main_arg1) = _
  dsimp only [hostOps0]; after_results_simp <;> rfl
theorem W1_arg4 : W1 m ρ c (Proc.devRef .tc main_arg4) = m ((c : Thread nD τ).loc main_arg4) := by
  show StableHlo.after hostOps0 (W0 m ρ c) (Proc.devRef .tc main_arg4) = _
  dsimp only [hostOps0]; after_results_simp <;> rfl
theorem W1_arg5 : W1 m ρ c (Proc.devRef .tc main_arg5) = m ((c : Thread nD τ).loc main_arg5) := by
  show StableHlo.after hostOps0 (W0 m ρ c) (Proc.devRef .tc main_arg5) = _
  dsimp only [hostOps0]; after_results_simp <;> rfl
theorem W1_arg6 : W1 m ρ c (Proc.devRef .tc main_arg6) = m ((c : Thread nD τ).loc main_arg6) := by
  show StableHlo.after hostOps0 (W0 m ρ c) (Proc.devRef .tc main_arg6) = _
  dsimp only [hostOps0]; after_results_simp <;> rfl
theorem W1_arg7 : W1 m ρ c (Proc.devRef .tc main_arg7) = m ((c : Thread nD τ).loc main_arg7) := by
  show StableHlo.after hostOps0 (W0 m ρ c) (Proc.devRef .tc main_arg7) = _
  dsimp only [hostOps0]; after_results_simp <;> rfl
theorem W1_arg8 : W1 m ρ c (Proc.devRef .tc main_arg8) = m ((c : Thread nD τ).loc main_arg8) := by
  show StableHlo.after hostOps0 (W0 m ρ c) (Proc.devRef .tc main_arg8) = _
  dsimp only [hostOps0]; after_results_simp <;> rfl
theorem W1_arg9 : W1 m ρ c (Proc.devRef .tc main_arg9) = m ((c : Thread nD τ).loc main_arg9) := by
  show StableHlo.after hostOps0 (W0 m ρ c) (Proc.devRef .tc main_arg9) = _
  dsimp only [hostOps0]; after_results_simp <;> rfl

/-- The node layer's bias row at the region's entry: the bias vector `%arg3` as one row. -/
theorem W1_v0 (y : S1x128.Idx) :
    (W1 m ρ c (Proc.devRef .tc main_v0) : S1x128.Idx → EReal) y
      = (m ((c : Thread nD τ).loc main_arg3) : S128.Idx → EReal) (Cert.ReferenceIdeal.Read.idx_main_v1 y) := by
  have e : (W1 m ρ c (Proc.devRef .tc main_v0) : S1x128.Idx → EReal)
      = shapeCast S1x128 (m ((c : Thread nD τ).loc main_arg3) : S128.Idx → EReal) shapeCasts_S128_S1x128 := by
    show StableHlo.after hostOps0 (W0 m ρ c) (Proc.devRef .tc main_v0) = _
    dsimp only [hostOps0]; after_results_simp <;> rfl
  rw [e]; exact row_of_reshape _ y

/-! ## The node layer's result, and the second region's entry -/

/-- After the first region the buffer `%1` holds the node layer of the arguments. -/
theorem node_out : W2 m ρ c (Proc.devRef .tc main_v1)
    = Cert.ReferenceIdeal.Read.val_main_v3 (F := Ideal) (m ((c : Thread nD τ).loc main_arg0)) (m ((c : Thread nD τ).loc main_arg2)) (m ((c : Thread nD τ).loc main_arg3)) := by
  refine (W2_arr m ρ c 3).trans ?_
  refine (NodeLayer.final (V1 m ρ) c (m ((c : Thread nD τ).loc main_arg3)) (W1_v0 m ρ c)).trans ?_
  show Cert.ReferenceIdeal.Read.val_main_v3 (F := Ideal) (W1 m ρ c (Proc.devRef .tc main_arg0)) (W1 m ρ c (Proc.devRef .tc main_arg2)) _ = _
  rw [W1_arg0, W1_arg2]

theorem W2_arg1 : W2 m ρ c (Proc.devRef .tc main_arg1) = m ((c : Thread nD τ).loc main_arg1) :=
  (W2_of_ne m ρ c main_arg1 (by decide)).trans (W1_arg1 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)

theorem W3_arg1 : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  dsimp only [hostOps1]; after_results_simp
theorem W3_arg4 : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  dsimp only [hostOps1]; after_results_simp
theorem W3_arg6 : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  dsimp only [hostOps1]; after_results_simp
theorem W3_arg7 : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  dsimp only [hostOps1]; after_results_simp
theorem W3_arg8 : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  dsimp only [hostOps1]; after_results_simp
theorem W3_arg9 : W3 m ρ c (Proc.devRef .tc main_arg9) = m ((c : Thread nD τ).loc main_arg9) := by
  refine Eq.trans ?_ (W2_arg9 m ρ c)
  show StableHlo.after hostOps1 (W2 m ρ c) (Proc.devRef .tc main_arg9) = _
  dsimp only [hostOps1]; after_results_simp
theorem W3_v1 : W3 m ρ c (Proc.devRef .tc main_v1) = W2 m ρ c (Proc.devRef .tc main_v1) := by
  show StableHlo.after hostOps1 (W2 m ρ c) (Proc.devRef .tc main_v1) = _
  dsimp only [hostOps1]; after_results_simp

/-- The edge layer's bias row at the region's entry: the bias vector `%arg5` as one row. -/
theorem W3_v2 (y : S1x128.Idx) :
    (W3 m ρ c (Proc.devRef .tc main_v2) : S1x128.Idx → EReal) y
      = (m ((c : Thread nD τ).loc main_arg5) : S128.Idx → EReal) (Cert.ReferenceIdeal.Read.idx_main_v5 y) := by
  have e : (W3 m ρ c (Proc.devRef .tc main_v2) : S1x128.Idx → EReal)
      = shapeCast S1x128 (W2 m ρ c (Proc.devRef .tc main_arg5) : S128.Idx → EReal) shapeCasts_S128_S1x128 := by
    show StableHlo.after hostOps1 (W2 m ρ c) (Proc.devRef .tc main_v2) = _
    dsimp only [hostOps1]; after_results_simp <;> rfl
  rw [e, W2_arg5]; exact row_of_reshape _ y

/-! ## The edge layer's result, and the third region's entry -/

/-- After the second region the buffer `%3` holds the edge layer of the arguments. -/
theorem edge_out : W4 m ρ c (Proc.devRef .tc main_v3)
    = Cert.ReferenceIdeal.Read.val_main_v7 (F := Ideal) (m ((c : Thread nD τ).loc main_arg1)) (m ((c : Thread nD τ).loc main_arg4)) (m ((c : Thread nD τ).loc main_arg5)) := by
  refine (W4_arr m ρ c 3).trans ?_
  refine (EdgeLayer.final (V3 m ρ) c (m ((c : Thread nD τ).loc main_arg5)) (W3_v2 m ρ c)).trans ?_
  show Cert.ReferenceIdeal.Read.val_main_v7 (F := Ideal) (W3 m ρ c (Proc.devRef .tc main_arg1)) (W3 m ρ c (Proc.devRef .tc main_arg4)) _ = _
  rw [W3_arg1, W3_arg4]

/-- The second region leaves the node layer's result where it was. -/
theorem W4_v1 : W4 m ρ c (Proc.devRef .tc main_v1)
    = Cert.ReferenceIdeal.Read.val_main_v3 (F := Ideal) (m ((c : Thread nD τ).loc main_arg0)) (m ((c : Thread nD τ).loc main_arg2)) (m ((c : Thread nD τ).loc main_arg3)) :=
  (W4_of_ne m ρ c main_v1 (by decide)).trans ((W3_v1 m ρ c).trans (node_out m ρ c))
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)

theorem W5_arg6 : W5 m ρ c (Proc.devRef .tc main_arg6) = m ((c : Thread nD τ).loc main_arg6) := by
  refine Eq.trans ?_ (W4_arg6 m ρ c)
  show StableHlo.after hostOps2 (W4 m ρ c) (Proc.devRef .tc main_arg6) = _
  dsimp only [hostOps2]; after_results_simp

/-- The combining layer's bias row at the region's entry: the bias vector `%arg7` as one row. -/
theorem W5_v25 (y : S1x128.Idx) :
    (W5 m ρ c (Proc.devRef .tc main_v25) : S1x128.Idx → EReal) y
      = (m ((c : Thread nD τ).loc main_arg7) : S128.Idx → EReal) (Cert.ReferenceIdeal.Read.idx_main_v1 y) := by
  have e : (W5 m ρ c (Proc.devRef .tc main_v25) : S1x128.Idx → EReal)
      = shapeCast S1x128 (W4 m ρ c (Proc.devRef .tc main_arg7) : S128.Idx → EReal) shapeCasts_S128_S1x128 := by
    show StableHlo.after hostOps2 (W4 m ρ c) (Proc.devRef .tc main_v25) = _
    dsimp only [hostOps2]; after_results_simp <;> rfl
  rw [e, W4_arg7]; exact row_of_reshape _ y

/-- The third host stretch, from any contents `X`, leaves in `%24` the middle part of `X`'s `%1`, `%3` and the two index
    arrays: the last operation joins `%1` with `%23` side by side, and each of the two is read back through the
    stretch on its own — `%1` untouched, `%23` the mean of the messages, the reference's own operations with the same
    dimension numbers. -/
theorem third_stretch (X : Valuation τ sig (Elt Ideal)) :
    (StableHlo.after hostOps2 X (Proc.devRef .tc main_v24) : S40000x256.Idx → EReal)
      = Cert.ReferenceIdeal.Layers.mid (X (Proc.devRef .tc main_v1)) (X (Proc.devRef .tc main_v3))
          (X (Proc.devRef .tc main_arg8)) (X (Proc.devRef .tc main_arg9)) := by
  dsimp only [hostOps2]
  after_results_simp
  unfold Cert.ReferenceIdeal.Layers.mid
  refine congrArg₂ (fun a b => concatenate S40000x256 1 [⟨S40000x128, a⟩, ⟨S40000x128, b⟩] concatenates_S40000x128_S40000x128_S40000x256_d1) ?_ ?_
  · after_results_simp
  · after_results_simp
    rfl

/-- The third host stretch leaves in `%24` the middle part of what the first two regions left. -/
theorem joined : (W5 m ρ c (Proc.devRef .tc main_v24) : S40000x256.Idx → EReal)
    = Cert.ReferenceIdeal.Layers.mid (W4 m ρ c (Proc.devRef .tc main_v1)) (W4 m ρ c (Proc.devRef .tc main_v3))
        (W4 m ρ c (Proc.devRef .tc main_arg8)) (W4 m ρ c (Proc.devRef .tc main_arg9)) :=
  third_stretch (W4 m ρ c)

/-! ## The result -/

/-- THE RESULT ARRAY at the last boundary: the reference's term of the launch memory's argument arrays. -/
theorem result : W6 m ρ c (Proc.devRef .tc main_v26)
    = Cert.ReferenceIdeal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (W6_arr m ρ c 3).trans ?_
  refine (CombineLayer.final (V5 m ρ) c (m ((c : Thread nD τ).loc main_arg7)) (W5_v25 m ρ c)).trans ?_
  show Cert.ReferenceIdeal.Read.val_main_v3 (F := Ideal) (W5 m ρ c (Proc.devRef .tc main_v24)) (W5 m ρ c (Proc.devRef .tc main_arg6)) _ = _
  rw [joined, W5_arg6, W4_v1, edge_out, W4_arg8, W4_arg9, Cert.ReferenceIdeal.Layers.result_eq]

end Cert.KernelIdeal.Fold

end
-- ==== Proof.lean ====
/- A graph convolution's forward pass in three dense layers: the kernel program runs each layer x · w + b as a pipelined
   matrix product on blocks of rows (bf16 operands, f32 accumulation) and keeps the gather, the per-destination mean
   and the concatenation between them as host operations; the reference computes the same three layers as whole
   matrix products on the host, with the same host operations between them.

   At the extended reals the narrowing to bf16 is the identity and a product accumulated into zero is the plain sum
   over the contracted axis, so each pipelined layer writes, block of rows by block of rows, exactly the dense layer's
   rows; the blocks tile the result, so each region leaves the dense layer of the arrays it was entered with. Reading
   the program's segments back from the result buffer then gives the combining layer of the middle part of the node
   and edge layers of the arguments — the reference's own term, the middle part carried as one unopened function on
   both sides. No law beyond reindexing the contraction's sum is used, so the finiteness of the inputs is never
   opened. The frames are the generated ones (the reference's is its generated run with the result dropped), and
   the idealization rewrote nothing, so its claim is `True`. -/
import proofs.«122698_j30700426232196_1_alg».proof.Defs
import proofs.«122698_j30700426232196_1_alg».proof.Proof.Gen.Kernel
import proofs.«122698_j30700426232196_1_alg».proof.Proof.Gen.Kernel.Skeleton
import proofs.«122698_j30700426232196_1_alg».proof.Proof.Gen.Kernel.Launch
import proofs.«122698_j30700426232196_1_alg».proof.Proof.Gen.Kernel.Points
import proofs.«122698_j30700426232196_1_alg».proof.Proof.Gen.Kernel.Frame
import proofs.«122698_j30700426232196_1_alg».proof.Proof.Gen.KernelIdeal
import proofs.«122698_j30700426232196_1_alg».proof.Proof.Gen.KernelIdeal.Skeleton
import proofs.«122698_j30700426232196_1_alg».proof.Proof.Gen.KernelIdeal.Launch
import proofs.«122698_j30700426232196_1_alg».proof.Proof.Gen.KernelIdeal.Points
import proofs.«122698_j30700426232196_1_alg».proof.Proof.Gen.KernelIdeal.Frame
import proofs.«122698_j30700426232196_1_alg».proof.Proof.Gen.ReferenceIdeal
import proofs.«122698_j30700426232196_1_alg».proof.Proof.Gen.Pre_finite_inputs
import proofs.«122698_j30700426232196_1_alg».proof.Proof.Gen.ReferenceIdeal.Run
import proofs.«122698_j30700426232196_1_alg».proof.Proof.Gen.ReferenceIdeal.Read
import proofs.«122698_j30700426232196_1_alg».proof.Proof.RunAll
import proofs.«122698_j30700426232196_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the same function of the argument arrays: the combining layer of the
    middle part of the node and edge layers. -/
theorem algebraic : Cert.algebraic_KernelIdeal_ReferenceIdeal := by
  intro m ρ m' ρ' _ hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result m ρ c), (h c).2⟩)
      (Cert.KernelIdeal.RunAll.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9]
    exact Cert.ReferenceIdeal.Read.val_main_v32_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
